-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x4096 .f32) (main_arg2 : FVec F S4096 .f32) (main_arg3 : FVec F S4096x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1024 : Shape := ⟨2, ![8192, 1024]⟩
abbrev S1x4096 : Shape := ⟨2, ![1, 4096]⟩
abbrev S1x1024 : Shape := ⟨2, ![1, 1024]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S2048x1024 : Shape := ⟨2, ![2048, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S1024x4096, .bf16⟩
  | .hbm, ⟨7, _⟩ => ⟨S4096x1024, .bf16⟩
  | .hbm, ⟨8, _⟩ => ⟨S1x4096, .f32⟩
  | .hbm, ⟨9, _⟩ => ⟨S1x1024, .f32⟩
  | .hbm, ⟨10, _⟩ => ⟨S8192x1024, .f32⟩
  | .hbm, ⟨11, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S8192x1024 : S4x2048x1024.ShapeCasts S8192x1024
  bitsLt_bf16_f32 : FTy.bits .bf16 < FTy.bits .f32
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x4096_S1024x2048_0_0 : ∀ a, (![0, 0] : Fin 2 → Nat) a + S1024x2048.size a ≤ S1024x4096.size a
  h_S1024x2048 : 0 < S1024x2048.numel
  shapeCasts_S1024x2048_S1024x2048 : S1024x2048.ShapeCasts S1024x2048
  inb_S1x4096_S1x2048_0_0 : ∀ a, (![0, 0] : Fin 2 → Nat) a + S1x2048.size a ≤ S1x4096.size a
  h_S1x2048 : 0 < S1x2048.numel
  shapeCasts_S1x2048_S1x2048 : S1x2048.ShapeCasts S1x2048
  broadcasts_S1x2048_S512x2048 : S1x2048.Broadcasts S512x2048
  inb_S4096x1024_S2048x1024_0_0 : ∀ a, (![0, 0] : Fin 2 → Nat) a + S2048x1024.size a ≤ S4096x1024.size a
  h_S2048x1024 : 0 < S2048x1024.numel
  shapeCasts_S2048x1024_S2048x1024 : S2048x1024.ShapeCasts S2048x1024
  inb_S1024x4096_S1024x2048_0_2048 : ∀ a, (![0, 2048] : Fin 2 → Nat) a + S1024x2048.size a ≤ S1024x4096.size a
  inb_S1x4096_S1x2048_0_2048 : ∀ a, (![0, 2048] : Fin 2 → Nat) a + S1x2048.size a ≤ S1x4096.size a
  inb_S4096x1024_S2048x1024_2048_0 : ∀ a, (![2048, 0] : Fin 2 → Nat) a + S2048x1024.size a ≤ S4096x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x2048x4096 : Shape := ⟨3, ![4, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.FfnSpec.lean ====
/-
  The two-layer feed-forward map, one token at a time, on the extended reals.

  A token is a row of 1024 features. Its hidden unit `k` (of 4096) is the affine form `∑ j, row j · W1 (j, k) + b1 k`
  rectified against zero (`max · 0`), and its output feature `d` (of 1024) is `∑ k, hidden k · W2 (k, d) + b2 d`.
  The only algebra this certificate needs is that the sum over the 4096 hidden units is the sum over the first 2048 plus
  the sum over the last 2048: addition on the extended reals is a commutative monoid, so this holds at every value,
  infinite ones included, and nothing here asks the inputs to be finite.
-/
import Idealize.ShloMosaic.PureOps.Ideal
import Idealize.ShloMosaic.PureOps.Ideal.Laws
import Idealize.ShloMosaic.Lib.ValueIdx

noncomputable section

open scoped BigOperators

namespace Cert.Ffn

open Idealize.ShloMosaic Idealize.ShloMosaic.ValueIdx

/-- The zero the rectifier compares with, kept as the bit pattern of `+0.0` that both programs spell. -/
abbrev zeroWord : EReal := Ideal.ofBits .f32 0x00000000#32

/-- A sum over 4096 terms is the sum of its first 2048 plus the sum of its last 2048. -/
theorem sum_halves (f : Fin 4096 → EReal) :
    ∑ k : Fin 4096, f k
      = (∑ k : Fin 2048, f ⟨k.val, by omega⟩) + ∑ k : Fin 2048, f ⟨2048 + k.val, by omega⟩ :=
  Fin.sum_univ_add (a := 2048) (b := 2048) f

/-- Hidden unit `k` of a token: its features' affine form, rectified. -/
def hidden (row : Fin 1024 → EReal) (W1 : (⟨2, ![1024, 4096]⟩ : Shape).Idx → EReal) (b1 : Fin 4096 → EReal)
    (k : Fin 4096) : EReal :=
  max ((∑ j : Fin 1024, row j * W1 (ix2 j k)) + b1 k) zeroWord

/-- Output feature `d` of a token: the hidden units' affine form. -/
def outFeature (row : Fin 1024 → EReal) (W1 : (⟨2, ![1024, 4096]⟩ : Shape).Idx → EReal) (b1 : Fin 4096 → EReal)
    (W2 : (⟨2, ![4096, 1024]⟩ : Shape).Idx → EReal) (b2 : Fin 1024 → EReal) (d : Fin 1024) : EReal :=
  (∑ k : Fin 4096, hidden row W1 b1 k * W2 (ix2 k d)) + b2 d

/-- The output feature computed in two halves of the hidden width, the halves' contributions added one after the other
    onto zero, is the output feature. -/
theorem outFeature_of_halves (row : Fin 1024 → EReal) (W1 : (⟨2, ![1024, 4096]⟩ : Shape).Idx → EReal)
    (b1 : Fin 4096 → EReal) (W2 : (⟨2, ![4096, 1024]⟩ : Shape).Idx → EReal) (b2 : Fin 1024 → EReal) (d : Fin 1024) :
    ((0 + ∑ k : Fin 2048, hidden row W1 b1 ⟨k.val, by omega⟩ * W2 (ix2 ⟨k.val, by omega⟩ d))
        + ∑ k : Fin 2048, hidden row W1 b1 ⟨2048 + k.val, by omega⟩ * W2 (ix2 ⟨2048 + k.val, by omega⟩ d)) + b2 d
      = outFeature row W1 b1 W2 b2 d := by
  unfold outFeature
  rw [sum_halves, zero_add]

/-- The whole map on the [4, 2048, 1024] token array: at batch `a`, position `b`, feature `d`, the output feature `d`
    of token `(a, b)`. -/
def ffn (X : (⟨3, ![4, 2048, 1024]⟩ : Shape).Idx → EReal) (W1 : (⟨2, ![1024, 4096]⟩ : Shape).Idx → EReal)
    (B1 : (⟨1, ![4096]⟩ : Shape).Idx → EReal) (W2 : (⟨2, ![4096, 1024]⟩ : Shape).Idx → EReal)
    (B2 : (⟨1, ![1024]⟩ : Shape).Idx → EReal) : (⟨3, ![4, 2048, 1024]⟩ : Shape).Idx → EReal := fun i =>
  outFeature (fun j => X (ix3 (i 0) (i 1) j)) W1 (fun k => B1 (ix1 k)) W2 (fun d => B2 (ix1 d)) (i 2)

end Cert.Ffn

end
-- ==== Proof.FfnPayload.lean ====
/-
  The kernel body's arithmetic at one position of its output block.

  The body works on a block of 512 tokens. It forms the hidden units in two halves of 2048: for each half, the product
  of the token block with that half of the first weight matrix's columns, plus that half of the first bias, rectified;
  then the product with that half of the second weight matrix's rows. The two contributions are added one after the
  other onto a zero block, and the second bias is added last. Read at token `p` and output feature `q`, with each
  matrix product written as its plain sum over the contracted axis, this is the two-halves form of the token's output
  feature (`Cert.Ffn.outFeature_of_halves`).
-/
import proofs.«121778_j58506044506432_2_alg».proof.Proof.Gen.KernelIdeal.Frame
import proofs.«121778_j58506044506432_2_alg».proof.Proof.FfnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.FfnBlock

open Cert.KernelIdeal Cert.KernelIdeal.Gen Idealize.ShloMosaic Idealize.ShloMosaic.ValueIdx Cert.Ffn

/-! ## The two matrix products at an index -/

/-- The first product's dimension numbers: tokens by features times features by hidden units. -/
abbrev D1 : DotDims S512x1024 S1024x2048 S512x2048 := dot_S512x1024_S1024x2048_S512x2048_1_0_0_1_n_n
/-- The second product's: tokens by hidden units times hidden units by output features. -/
abbrev D2 : DotDims S512x2048 S2048x1024 S512x1024 := dot_S512x2048_S2048x1024_S512x1024_1_0_0_1_n_n

theorem D1_lhs0 (i : S512x2048.Idx) (q : D1.contr.Idx) : (D1.lhsIdx i q 0).val = (i 0).val := by
  unfold DotDims.lhsIdx
  rw [dif_neg (show ¬(0 : Fin S512x1024.rank) ∈ D1.lhsBatch by decide),
    dif_pos (show (0 : Fin S512x1024.rank) ∈ D1.lhsNonContracting by decide)]
  rfl
theorem D1_lhs1 (i : S512x2048.Idx) (q : D1.contr.Idx) : (D1.lhsIdx i q 1).val = (q ⟨0, by decide⟩).val :=
  D1.lhsIdx_val_of_single rfl i q
theorem D1_rhs0 (i : S512x2048.Idx) (q : D1.contr.Idx) : (D1.rhsIdx i q 0).val = (q ⟨0, by decide⟩).val :=
  D1.rhsIdx_val_of_single rfl i q
theorem D1_rhs1 (i : S512x2048.Idx) (q : D1.contr.Idx) : (D1.rhsIdx i q 1).val = (i 1).val := by
  unfold DotDims.rhsIdx
  rw [dif_neg (show ¬(1 : Fin S1024x2048.rank) ∈ D1.rhsBatch by decide),
    dif_pos (show (1 : Fin S1024x2048.rank) ∈ D1.rhsNonContracting by decide)]
  rfl

/-- Into a zero accumulator, the first product at token `p` and hidden unit `k` is the sum over the features. -/
theorem dot1_apply (a : FVec Ideal S512x1024 .bf16) (b : FVec Ideal S1024x2048 .bf16) (p : Fin 512) (k : Fin 2048) :
    matmul (F := Ideal) D1 none a b (constant (F := Ideal) S512x2048 .f32 0x00000000#32) (ix2 p k)
      = ∑ j : Fin 1024, a (ix2 p j) * b (ix2 j k) := by
  simp only [matmul]
  rw [Ideal.matmul_constant_zero_apply, ← Equiv.sum_comp (contrEquiv1 D1 1024 rfl rfl).symm]
  refine Finset.sum_congr rfl fun j _ => ?_
  have hj := contrEquiv1_symm_val D1 1024 rfl rfl j
  have el : D1.lhsIdx (ix2 p k) ((contrEquiv1 D1 1024 rfl rfl).symm j) = ix2 p j := funext fun ax => Fin.ext (by
    match ax with
    | ⟨0, _⟩ => exact D1_lhs0 _ _
    | ⟨1, _⟩ => exact (D1_lhs1 _ _).trans hj)
  have er : D1.rhsIdx (ix2 p k) ((contrEquiv1 D1 1024 rfl rfl).symm j) = ix2 j k := funext fun ax => Fin.ext (by
    match ax with
    | ⟨0, _⟩ => exact (D1_rhs0 _ _).trans hj
    | ⟨1, _⟩ => exact D1_rhs1 _ _)
  rw [el, er]

theorem D2_lhs0 (i : S512x1024.Idx) (q : D2.contr.Idx) : (D2.lhsIdx i q 0).val = (i 0).val := by
  unfold DotDims.lhsIdx
  rw [dif_neg (show ¬(0 : Fin S512x2048.rank) ∈ D2.lhsBatch by decide),
    dif_pos (show (0 : Fin S512x2048.rank) ∈ D2.lhsNonContracting by decide)]
  rfl
theorem D2_lhs1 (i : S512x1024.Idx) (q : D2.contr.Idx) : (D2.lhsIdx i q 1).val = (q ⟨0, by decide⟩).val :=
  D2.lhsIdx_val_of_single rfl i q
theorem D2_rhs0 (i : S512x1024.Idx) (q : D2.contr.Idx) : (D2.rhsIdx i q 0).val = (q ⟨0, by decide⟩).val :=
  D2.rhsIdx_val_of_single rfl i q
theorem D2_rhs1 (i : S512x1024.Idx) (q : D2.contr.Idx) : (D2.rhsIdx i q 1).val = (i 1).val := by
  unfold DotDims.rhsIdx
  rw [dif_neg (show ¬(1 : Fin S2048x1024.rank) ∈ D2.rhsBatch by decide),
    dif_pos (show (1 : Fin S2048x1024.rank) ∈ D2.rhsNonContracting by decide)]
  rfl

/-- Into a zero accumulator, the second product at token `p` and output feature `q` is the sum over the half's
    hidden units. -/
theorem dot2_apply (a : FVec Ideal S512x2048 .bf16) (b : FVec Ideal S2048x1024 .bf16) (p : Fin 512) (q : Fin 1024) :
    matmul (F := Ideal) D2 none a b (constant (F := Ideal) S512x1024 .f32 0x00000000#32) (ix2 p q)
      = ∑ k : Fin 2048, a (ix2 p k) * b (ix2 k q) := by
  simp only [matmul]
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 p q) ((contrEquiv1 D2 2048 rfl rfl).symm k) = ix2 p k := funext fun ax => Fin.ext (by
    match ax with
    | ⟨0, _⟩ => exact D2_lhs0 _ _
    | ⟨1, _⟩ => exact (D2_lhs1 _ _).trans hk)
  have er : D2.rhsIdx (ix2 p q) ((contrEquiv1 D2 2048 rfl rfl).symm k) = ix2 k q := funext fun ax => Fin.ext (by
    match ax with
    | ⟨0, _⟩ => exact (D2_rhs0 _ _).trans hk
    | ⟨1, _⟩ => exact D2_rhs1 _ _)
  rw [el, er]

/-! ## The body's result at a position -/

/-- One half's rectified hidden unit `k` of token `p`, from the loaded token block, that half's columns of the first
    weight matrix and that half of the first bias. -/
theorem half_hidden_apply (x : FVec Ideal S512x1024 .f32) (w : FVec Ideal S1024x2048 .bf16) (b : FVec Ideal S1x2048 .f32)
    (p : Fin 512) (k : Fin 2048) :
    (truncf .bf16 (maximumf (addf (matmul (F := Ideal) D1 none
        (truncf .bf16 (shapeCast S512x1024 x shapeCasts_S512x1024_S512x1024) bitsLt_bf16_f32)
        (shapeCast S1024x2048 w shapeCasts_S1024x2048_S1024x2048) (constant (F := Ideal) S512x2048 .f32 0x00000000#32))
        (broadcastTo S512x2048 (shapeCast S1x2048 b shapeCasts_S1x2048_S1x2048) broadcasts_S1x2048_S512x2048))
        (broadcast S512x2048 (Scalar.ofBits (F := Ideal) .f32 0x00000000#32))) bitsLt_bf16_f32 : FVec Ideal S512x2048 .bf16) (ix2 p k)
      = max ((∑ j : Fin 1024, x (ix2 p j) * w (ix2 j k)) + b (ix2 (0 : Fin 1) k)) zeroWord := by
  rw [shapeCast_self, shapeCast_self, shapeCast_self]
  show max (matmul (F := Ideal) D1 none _ _ _ (ix2 p k) + broadcastTo S512x2048 b broadcasts_S1x2048_S512x2048 (ix2 p k)) zeroWord = _
  rw [dot1_apply, broadcastTo_1b_ab_apply]
  rfl

/-- The body's result at token `p` and output feature `q`, of its eight loaded pieces: the two halves' contributions
    added one after the other onto zero, then the second bias. -/
theorem payload_apply (v0 : FVec Ideal S512x1024 .f32) (v4 : FVec Ideal S1024x2048 .bf16) (v7 : FVec Ideal S1x2048 .f32)
    (v14 : FVec Ideal S2048x1024 .bf16) (v18 : FVec Ideal S1024x2048 .bf16) (v21 : FVec Ideal S1x2048 .f32)
    (v28 : FVec Ideal S2048x1024 .bf16) (v32 : FVec Ideal S1x1024 .f32) (p : Fin 512) (q : Fin 1024) :
    k0_pay1 (F := Ideal) v0 v4 v7 v14 v18 v21 v28 v32 (ix2 p q)
      = ((0 + ∑ k : Fin 2048, max ((∑ j : Fin 1024, v0 (ix2 p j) * v4 (ix2 j k)) + v7 (ix2 (0 : Fin 1) k)) zeroWord
              * v14 (ix2 k q))
          + ∑ k : Fin 2048, max ((∑ j : Fin 1024, v0 (ix2 p j) * v18 (ix2 j k)) + v21 (ix2 (0 : Fin 1) k)) zeroWord
              * v28 (ix2 k q))
        + v32 (ix2 (0 : Fin 1) q) := by
  unfold k0_pay1
  show ((Scalar.ofBits (F := Ideal) .f32 0x00000000#32 + matmul (F := Ideal) D2 none _ _ _ (ix2 p q))
      + matmul (F := Ideal) D2 none _ _ _ (ix2 p q))
      + broadcastTo S512x1024 _ broadcasts_S1x1024_S512x1024 (ix2 p q) = _
  rw [dot2_apply, dot2_apply, broadcastTo_1b_ab_apply]
  simp only [half_hidden_apply]
  simp only [shapeCast_self]
  rw [show Scalar.ofBits (F := Ideal) .f32 0x00000000#32 = (0 : EReal) from Ideal.ofBits_zero_f32]

end Cert.KernelIdeal.FfnBlock

end
-- ==== Proof.FfnRegion.lean ====
/-
  From the body's block to the region's whole output array.

  The body reads five staged blocks: 512 tokens of the [8192, 1024] token array, and the whole of the first weight
  matrix, the first bias row, the second weight matrix and the second bias row. It loads the weights and the first bias
  in two pieces each — hidden units 0 … 2047 and 2048 … 4095 — so a piece read at hidden unit `k` is the staged block read
  at `k`, or at `2048 + k`. With that, what the body leaves at token `p`, feature `q` of its output block is that
  token's output feature (`Cert.Ffn.outFeature`). Grid point `t` stages tokens `512 t … 512 t + 511` and writes its
  block back to the same rows, the sixteen points' blocks tile the 8192 rows, so after the region the output array holds,
  at token `r` and feature `d`, the output feature `d` of row `r` of the token array.
-/
import proofs.«121778_j58506044506432_2_alg».proof.Proof.Gen.KernelIdeal.Frame
import proofs.«121778_j58506044506432_2_alg».proof.Proof.FfnSpec
import proofs.«121778_j58506044506432_2_alg».proof.Proof.FfnPayload
import Idealize.ShloMosaic.Lib.Pipeline.Value
import Idealize.ShloMosaic.Lib.ValueIdx

noncomputable section

open scoped BigOperators

namespace Cert.KernelIdeal.FfnRegion

open Cert.KernelIdeal Cert.KernelIdeal.Gen Idealize.ShloMosaic Idealize.ShloMosaic.ValueIdx Cert.Ffn
open Cert.KernelIdeal.FfnBlock

/-! ## The body's loads

Each load reads its staged block through a rectangle of unit stride; the rectangle places its own position `(a, b)` at
`(offset₀ + a, offset₁ + b)` of the block. -/

theorem idx_tokens (p : Fin 512) (j : Fin 1024) : r0_0.toLoadRect.idx (ix2 p j) = ix2 p j :=
  funext fun a => Fin.ext (by
    match a with
    | ⟨0, _⟩ => show 0 + 1 * p.val = p.val; omega
    | ⟨1, _⟩ => show 0 + 1 * j.val = j.val; omega)

theorem idx_w1_lo (j : Fin 1024) (k : Fin 2048) :
    r0_1.toLoadRect.idx (ix2 j k) = ix2 j (⟨k.val, by omega⟩ : Fin 4096) :=
  funext fun a => Fin.ext (by
    match a with
    | ⟨0, _⟩ => show 0 + 1 * j.val = j.val; omega
    | ⟨1, _⟩ => show 0 + 1 * k.val = k.val; omega)

theorem idx_w1_hi (j : Fin 1024) (k : Fin 2048) :
    r0_4.toLoadRect.idx (ix2 j k) = ix2 j (⟨2048 + k.val, by omega⟩ : Fin 4096) :=
  funext fun a => Fin.ext (by
    match a with
    | ⟨0, _⟩ => show 0 + 1 * j.val = j.val; omega
    | ⟨1, _⟩ => show 2048 + 1 * k.val = 2048 + k.val; omega)

theorem idx_b1_lo (k : Fin 2048) :
    r0_2.toLoadRect.idx (ix2 (0 : Fin 1) k) = ix2 (0 : Fin 1) (⟨k.val, by omega⟩ : Fin 4096) :=
  funext fun a => Fin.ext (by
    match a with
    | ⟨0, _⟩ => rfl
    | ⟨1, _⟩ => show 0 + 1 * k.val = k.val; omega)

theorem idx_b1_hi (k : Fin 2048) :
    r0_5.toLoadRect.idx (ix2 (0 : Fin 1) k) = ix2 (0 : Fin 1) (⟨2048 + k.val, by omega⟩ : Fin 4096) :=
  funext fun a => Fin.ext (by
    match a with
    | ⟨0, _⟩ => rfl
    | ⟨1, _⟩ => show 2048 + 1 * k.val = 2048 + k.val; omega)

theorem idx_w2_lo (k : Fin 2048) (q : Fin 1024) :
    r0_3.toLoadRect.idx (ix2 k q) = ix2 (⟨k.val, by omega⟩ : Fin 4096) q :=
  funext fun a => Fin.ext (by
    match a with
    | ⟨0, _⟩ => show 0 + 1 * k.val = k.val; omega
    | ⟨1, _⟩ => show 0 + 1 * q.val = q.val; omega)

theorem idx_w2_hi (k : Fin 2048) (q : Fin 1024) :
    r0_6.toLoadRect.idx (ix2 k q) = ix2 (⟨2048 + k.val, by omega⟩ : Fin 4096) q :=
  funext fun a => Fin.ext (by
    match a with
    | ⟨0, _⟩ => show 2048 + 1 * k.val = 2048 + k.val; omega
    | ⟨1, _⟩ => show 0 + 1 * q.val = q.val; omega)

theorem idx_b2 (q : Fin 1024) : r0_7.toLoadRect.idx (ix2 (0 : Fin 1) q) = ix2 (0 : Fin 1) q :=
  funext fun a => Fin.ext (by
    match a with
    | ⟨0, _⟩ => rfl
    | ⟨1, _⟩ => show 0 + 1 * q.val = q.val; omega)

/-! ## The output block at a position -/

theorem zero_offsets : (![0, 0] : Fin 2 → Nat) = fun _ => 0 := funext fun a => by fin_cases a <;> rfl

/-- What the body leaves at token `p`, feature `q` of its output block is the output feature `q` of row `p` of the
    staged token block, under the staged weights and bias rows. -/
theorem out_block_apply (x0 : FVec Ideal S512x1024 .f32) (x1 : FVec Ideal S1024x4096 .bf16) (x2 : FVec Ideal S1x4096 .f32)
    (x3 : FVec Ideal S4096x1024 .bf16) (x4 : FVec Ideal S1x1024 .f32) (p : Fin 512) (q : Fin 1024) :
    out0_5 (F := Ideal) x0 x1 x2 x3 x4 (ix2 p q)
      = outFeature (fun j => x0 (ix2 p j)) x1 (fun k => x2 (ix2 (0 : Fin 1) k)) x3 (fun d => x4 (ix2 (0 : Fin 1) d)) q := by
  unfold out0_5
  rw [View.canon_unit_zero zero_offsets]
  rw [payload_apply]
  simp only [View.ld, idx_tokens, idx_w1_lo, idx_w1_hi, idx_b1_lo, idx_b1_hi, idx_w2_lo, idx_w2_hi, idx_b2]
  exact outFeature_of_halves (fun j => x0 (ix2 p j)) x1 (fun k => x2 (ix2 (0 : Fin 1) k)) x3
    (fun d => x4 (ix2 (0 : Fin 1) d)) q

/-! ## The region's output array -/

/-- Equal rows, weights and biases give equal output features. -/
theorem outFeature_congr {row row' : Fin 1024 → EReal} {W1 W1' : (⟨2, ![1024, 4096]⟩ : Shape).Idx → EReal}
    {b1 b1' : Fin 4096 → EReal} {W2 W2' : (⟨2, ![4096, 1024]⟩ : Shape).Idx → EReal} {b2 b2' : Fin 1024 → EReal}
    {d d' : Fin 1024} (hrow : row = row') (hW1 : W1 = W1') (hb1 : b1 = b1') (hW2 : W2 = W2') (hb2 : b2 = b2')
    (hd : d = d') : outFeature row W1 b1 W2 b2 d = outFeature row' W1' b1' W2' b2' d' := by
  subst hrow hW1 hb1 hW2 hb2 hd; rfl

/-- The region's output array as ONE function of the five arrays the region stages: at token `r`, feature `d`, the
    output feature `d` of row `r` of the token array. -/
def regionOut (A0 : S8192x1024.Idx → EReal) (A1 : S1024x4096.Idx → EReal) (A2 : S1x4096.Idx → EReal)
    (A3 : S4096x1024.Idx → EReal) (A4 : S1x1024.Idx → EReal) : S8192x1024.Idx → EReal := fun i =>
  outFeature (fun j => A0 (ix2 (i 0) j)) A1 (fun k => A2 (ix2 (0 : Fin 1) k)) A3 (fun d => A4 (ix2 (0 : Fin 1) d)) (i 1)

variable (m : (ℓ : Loc nD τ sig) → Buf (Elt Ideal) ℓ) (ρ : Dev nD → PrngReg)

/-- The printed index maps, decided over the sixteen grid points: the token window and the output window are at block
    row `t`, every other window at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `regionOut` of the arrays as the region finds them. -/
theorem flushed_eq (c : Dev nD) (t : Fin cfg0.N) :
    (dats m 0 c).flushed 5 t = ((cfg0.win 5).blk t).view.read (Elt Ideal)
      (regionOut (V m c main_v0) (V m c main_v1) (V m c main_v3) (V m c main_v2) (V m c main_v4)) := by
  show (cfg0.win 5).cut (grid0.coords t) ((dats m 0 c).after 5 t) = _
  rw [after0_5]
  obtain ⟨e00, e01, e10, e11, e20, e21, e30, e31, e40, e41, e50, e51⟩ := idx_facts t
  funext y
  obtain ⟨p, q, rfl⟩ : ∃ (p : Fin 512) (q : Fin 1024), y = ix2 p q := ⟨y 0, y 1, eq_ix2 y⟩
  show out0_5 (F := Ideal) (iblk m c 0 t) (iblk m c 1 t) (iblk m c 2 t) (iblk m c 3 t) (iblk m c 4 t) (ix2 p q)
      = regionOut (V m c main_v0) (V m c main_v1) (V m c main_v3) (V m c main_v2) (V m c main_v4)
          (((cfg0.win 5).blk t).view.emb (ix2 p q))
  refine (out_block_apply (iblk m c 0 t) (iblk m c 1 t) (iblk m c 2 t) (iblk m c 3 t) (iblk m c 4 t) p q).trans ?_
  unfold regionOut
  refine outFeature_congr (funext fun j => ?_) (funext fun y => ?_) (funext fun k => ?_) (funext fun y => ?_)
    (funext fun d => ?_) (Fin.ext ?_)
  · -- row p of the staged token block is row 512 t + p of the token array
    show V m c main_v0 (((cfg0.win 0).blk t).view.emb (ix2 p j)) = V m c main_v0 _
    refine congrArg (V m c main_v0) (funext fun a => Fin.ext ?_)
    match a with
    | ⟨0, _⟩ =>
      show win0_0.index t (0 : Fin 2) * 512 + 1 * p.val = win0_5.index t (0 : Fin 2) * 512 + 1 * p.val
      rw [e00, e50]
    | ⟨1, _⟩ => show win0_0.index t (1 : Fin 2) * 1024 + 1 * j.val = j.val; rw [e01]; omega
  · show V m c main_v1 (((cfg0.win 1).blk t).view.emb y) = V m c main_v1 y
    refine congrArg (V m c main_v1) (funext fun a => Fin.ext ?_)
    match a with
    | ⟨0, _⟩ => show win0_1.index t (0 : Fin 2) * 1024 + 1 * (y 0).val = (y 0).val; rw [e10]; omega
    | ⟨1, _⟩ => show win0_1.index t (1 : Fin 2) * 4096 + 1 * (y 1).val = (y 1).val; rw [e11]; omega
  · show V m c main_v3 (((cfg0.win 2).blk t).view.emb (ix2 (0 : Fin 1) k)) = V m c main_v3 (ix2 (0 : Fin 1) k)
    refine congrArg (V m c main_v3) (funext fun a => Fin.ext ?_)
    match a with
    | ⟨0, _⟩ => show win0_2.index t (0 : Fin 2) * 1 + 1 * 0 = 0; rw [e20]
    | ⟨1, _⟩ => show win0_2.index t (1 : Fin 2) * 4096 + 1 * k.val = k.val; rw [e21]; omega
  · show V m c main_v2 (((cfg0.win 3).blk t).view.emb y) = V m c main_v2 y
    refine congrArg (V m c main_v2) (funext fun a => Fin.ext ?_)
    match a with
    | ⟨0, _⟩ => show win0_3.index t (0 : Fin 2) * 4096 + 1 * (y 0).val = (y 0).val; rw [e30]; omega
    | ⟨1, _⟩ => show win0_3.index t (1 : Fin 2) * 1024 + 1 * (y 1).val = (y 1).val; rw [e31]; omega
  · show V m c main_v4 (((cfg0.win 4).blk t).view.emb (ix2 (0 : Fin 1) d)) = V m c main_v4 (ix2 (0 : Fin 1) d)
    refine congrArg (V m c main_v4) (funext fun a => Fin.ext ?_)
    match a with
    | ⟨0, _⟩ => show win0_4.index t (0 : Fin 2) * 1 + 1 * 0 = 0; rw [e40]
    | ⟨1, _⟩ => show win0_4.index t (1 : Fin 2) * 1024 + 1 * d.val = d.val; rw [e41]; omega
  · show q.val = win0_5.index t (1 : Fin 2) * 1024 + 1 * q.val
    rw [e51]; omega

/-- An index of the output array is in point `t`'s block iff each coordinate is in the block's range on its axis. -/
theorem mem_blk (t : Fin cfg0.N) (i : S8192x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5).slice (win0_5.rect t)).set ↔ _
  rw [View.set_slice_whole, Rect.mem_set_unit]
  exact Iff.rfl

/-- Every token row is in some point's block: row `r` in point `r / 512`'s. -/
theorem cover (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  have ht : (i 0).val / 512 < cfg0.N := by rw [hN]; omega
  obtain ⟨-, -, -, -, -, -, -, -, -, -, e50, e51⟩ := idx_facts ⟨(i 0).val / 512, ht⟩
  refine ⟨⟨(i 0).val / 512, ht⟩, flush0_5 _, ?_⟩
  rw [mem_blk]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, ht⟩ (1 : Fin 2) * 1024 ≤ (i 1).val
      ∧ (i 1).val < win0_5.index ⟨(i 0).val / 512, ht⟩ (1 : Fin 2) * 1024 + 1024
    rw [e51]; omega

/-- The output array after the region. -/
theorem final (c : Dev nD) : (dats m 0 c).arrAt 5 cfg0.N
    = regionOut (V m c main_v0) (V m c main_v1) (V m c main_v3) (V m c main_v2) (V m c main_v4) :=
  (dats m 0 c).arrAt_eq_of_cover 5 _ (fun t _ => flushed_eq m c t) cover

end Cert.KernelIdeal.FfnRegion

end
-- ==== Proof.FfnKernelRun.lean ====
/-
  The kernel program's result array.

  Around the region the program only re-lays and re-types arrays. Before it: the [4, 2048, 1024] token array is viewed as
  [8192, 1024] (token `(a, b)` becomes row `2048 a + b`), the two weight matrices are narrowed in format (the identity
  on extended reals), and each bias vector gets a leading unit axis. After it: the [8192, 1024] output is viewed as
  [4, 2048, 1024] again. The region's output array holds, at row `r`, the output features of row `r` of the token array
  (`Cert.KernelIdeal.FfnRegion.final`); carried through the two views, the program's result at `(a, b, d)` is the output
  feature `d` of token `(a, b)`: the feed-forward map `Cert.Ffn.ffn` of the five argument arrays.
-/
import proofs.«121778_j58506044506432_2_alg».proof.Proof.Gen.KernelIdeal.Frame
import proofs.«121778_j58506044506432_2_alg».proof.Proof.FfnSpec
import proofs.«121778_j58506044506432_2_alg».proof.Proof.FfnRegion
import Idealize.ShloMosaic.Lib.Pipeline.Value
import Idealize.ShloMosaic.Lib.StableHlo.Run
import Idealize.ShloMosaic.Lib.ValueIdx
import Idealize.ShloMosaic.Lib.ValueLayout

noncomputable section

open scoped BigOperators

namespace Cert.KernelIdeal.FfnRun

open Cert.KernelIdeal Cert.KernelIdeal.Gen Idealize.ShloMosaic Idealize.ShloMosaic.TcCoe Idealize.SL.Sem
open Idealize.ShloMosaic.StableHlo Idealize.ShloMosaic.ValueIdx Cert.Ffn Cert.KernelIdeal.FfnRegion

/-! ## The two views, carried through the region's function -/

/-- The region's function of the re-laid arguments, viewed back as [4, 2048, 1024], is the feed-forward map. -/
theorem viewed_regionOut (X : S4x2048x1024.Idx → EReal) (W1 : S1024x4096.Idx → EReal) (B1 : S4096.Idx → EReal)
    (W2 : S4096x1024.Idx → EReal) (B2 : S1024.Idx → EReal) :
    shapeCast S4x2048x1024
        (regionOut (shapeCast S8192x1024 X shapeCasts_S4x2048x1024_S8192x1024) W1
          (shapeCast S1x4096 B1 shapeCasts_S4096_S1x4096) W2 (shapeCast S1x1024 B2 shapeCasts_S1024_S1x1024))
        shapeCasts_S8192x1024_S4x2048x1024
      = ffn X W1 B1 W2 B2 := by
  funext i
  obtain ⟨a, b, d, rfl⟩ : ∃ (a : Fin 4) (b : Fin 2048) (d : Fin 1024), i = ix3 a b d := ⟨i 0, i 1, i 2, eq_ix3 i⟩
  have hr : a.val * 2048 + b.val < 8192 := by omega
  rw [shapeCast_apply _ shapeCasts_S8192x1024_S4x2048x1024 (ix3 a b d) (ix2 (⟨a.val * 2048 + b.val, hr⟩ : Fin 8192) d) (by
    rw [Shape.rowMajor_val_two, Shape.rowMajor_val_three]; rfl)]
  unfold regionOut ffn
  refine outFeature_congr (funext fun j => ?_) rfl (funext fun k => ?_) rfl (funext fun d' => ?_) rfl
  · exact shapeCast_apply X shapeCasts_S4x2048x1024_S8192x1024 (ix2 (⟨a.val * 2048 + b.val, hr⟩ : Fin 8192) j) (ix3 a b j) (by
      rw [Shape.rowMajor_val_two, Shape.rowMajor_val_three]; rfl)
  · exact shapeCast_a_1a_apply B1 shapeCasts_S4096_S1x4096 0 k
  · exact shapeCast_a_1a_apply B2 shapeCasts_S1024_S1x1024 0 d'

variable (m : (ℓ : Loc nD τ sig) → Buf (Elt Ideal) ℓ) (ρ : Dev nD → PrngReg)

/-! ## The arrays the region finds -/

theorem V_tokens (c : Dev nD) : (V m c main_v0 : S8192x1024.Idx → EReal)
    = shapeCast S8192x1024 (m ((c.tc : Thread nD τ).loc main_arg0) : S4x2048x1024.Idx → EReal)
        shapeCasts_S4x2048x1024_S8192x1024 := by
  show StableHlo.after hostOps0 (fun b => m (c, b)) (Proc.devRef .tc main_v0) = _
  after_results
  rfl

theorem V_w1 (c : Dev nD) : (V m c main_v1 : S1024x4096.Idx → EReal)
    = (m ((c.tc : Thread nD τ).loc main_arg1) : S1024x4096.Idx → EReal) := by
  show StableHlo.after hostOps0 (fun b => m (c, b)) (Proc.devRef .tc main_v1) = _
  after_results
  rfl

theorem V_w2 (c : Dev nD) : (V m c main_v2 : S4096x1024.Idx → EReal)
    = (m ((c.tc : Thread nD τ).loc main_arg3) : S4096x1024.Idx → EReal) := by
  show StableHlo.after hostOps0 (fun b => m (c, b)) (Proc.devRef .tc main_v2) = _
  after_results
  rfl

theorem V_b1 (c : Dev nD) : (V m c main_v3 : S1x4096.Idx → EReal)
    = shapeCast S1x4096 (m ((c.tc : Thread nD τ).loc main_arg2) : S4096.Idx → EReal) shapeCasts_S4096_S1x4096 := by
  show StableHlo.after hostOps0 (fun b => m (c, b)) (Proc.devRef .tc main_v3) = _
  after_results
  rfl

theorem V_b2 (c : Dev nD) : (V m c main_v4 : S1x1024.Idx → EReal)
    = shapeCast S1x1024 (m ((c.tc : Thread nD τ).loc main_arg4) : S1024.Idx → EReal) shapeCasts_S1024_S1x1024 := by
  show StableHlo.after hostOps0 (fun b => m (c, b)) (Proc.devRef .tc main_v4) = _
  after_results
  rfl

/-! ## The result array -/

/-- After the region, the one remaining operation views the region's output array as [4, 2048, 1024]. -/
theorem tail_eq (c : Dev nD) :
    Pipeline.afterTail₀ cfgs (dats m) 0 (V0 m) [hostOps1] c main_v6
      = shapeCast S4x2048x1024 ((dats m 0 c).arrAt 5 cfg0.N : S8192x1024.Idx → EReal)
          shapeCasts_S8192x1024_S4x2048x1024 := by
  have hw : Pipeline.withArrays (cfgs 0).spec c (V0 m c) (fun w => (dats m 0 c).arrAt w (cfgs 0).N)
      (Proc.devRef .tc main_v5) = (dats m 0 c).arrAt 5 cfg0.N :=
    Pipeline.withArrays_arr spec0 launch0.win.arr_inj c _ _ 5
  unfold Pipeline.afterTail₀
  show StableHlo.after hostOps1 _ (Proc.devRef .tc main_v6) = _
  after_results
  rw [hw]
  rfl

/-- The program's result array is the feed-forward map of the five argument arrays. -/
theorem result_eq (c : Dev nD) :
    Pipeline.afterTail₀ cfgs (dats m) 0 (V0 m) [hostOps1] c main_v6
      = ffn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [tail_eq, final, V_tokens, V_w1, V_w2, V_b1, V_b2]
  exact viewed_regionOut _ _ _ _ _

/-- Every weakly fair execution of the kernel program terminates with the result array at the feed-forward map of the
    argument arrays, and the argument arrays unchanged. -/
theorem run : θ_run defs (onTc (τ := τ) (main (F := Ideal))) ⟨m, fun _ => 0, ρ⟩ fun r => ∀ c : Dev nD,
      r.2.mem ((c.tc : Thread nD τ).loc main_v6)
        = ffn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.FfnRun

end
-- ==== Proof.FfnReference.lean ====
/-
  The reference computes the feed-forward map.

  The reference is the plain program: the token array contracted with the first weight matrix over the features, the
  first bias added along the hidden axis, the rectifier, the contraction with the second weight matrix over the hidden
  axis, the second bias added along the feature axis. Read one operation at a time at an index, with each contraction as
  its plain sum, its result at batch `a`, position `b`, feature `d` is literally the output feature `d` of token
  `(a, b)`: only the operations' index maps have to be identified with the token's coordinates.
-/
import proofs.«121778_j58506044506432_2_alg».proof.Proof.Gen.ReferenceIdeal.Read
import proofs.«121778_j58506044506432_2_alg».proof.Proof.FfnSpec

noncomputable section

open scoped BigOperators

namespace Cert.ReferenceIdeal.FfnRef

open Cert.ReferenceIdeal Cert.ReferenceIdeal.Read Idealize.ShloMosaic Idealize.ShloMosaic.ValueIdx Cert.Ffn

/-! ## The operations' index maps, composed, are the token's coordinates -/

theorem tokens_idx (i : S4x2048x1024.Idx) (k : Fin 4096) (j : Fin 1024) :
    lidx_main_v0 (lidx_main_v5 i k) j = ix3 (i 0) (i 1) j :=
  funext fun a => Fin.ext (by match a with | ⟨0, _⟩ => rfl | ⟨1, _⟩ => rfl | ⟨2, _⟩ => rfl)

theorem w1_idx (i : S4x2048x1024.Idx) (k : Fin 4096) (j : Fin 1024) :
    ridx_main_v0 (lidx_main_v5 i k) j = ix2 j k :=
  funext fun a => Fin.ext (by match a with | ⟨0, _⟩ => rfl | ⟨1, _⟩ => rfl)

theorem b1_idx (i : S4x2048x1024.Idx) (k : Fin 4096) :
    idx_main_v1 (idx_main_v2 (lidx_main_v5 i k)) = ix1 k :=
  funext fun a => Fin.ext (by match a with | ⟨0, _⟩ => rfl)

theorem w2_idx (i : S4x2048x1024.Idx) (k : Fin 4096) : ridx_main_v5 i k = ix2 k (i 2) :=
  funext fun a => Fin.ext (by match a with | ⟨0, _⟩ => rfl | ⟨1, _⟩ => rfl)

theorem b2_idx (i : S4x2048x1024.Idx) : idx_main_v6 (idx_main_v7 i) = ix1 (i 2) :=
  funext fun a => Fin.ext (by match a with | ⟨0, _⟩ => rfl)

/-! ## The reference's result -/

/-- The reference's last stage is the feed-forward map of the five argument arrays. -/
theorem reference_eq (X : (⟨S4x2048x1024, .f32⟩ : BufTy).Contents (Elt Ideal)) (W1 : (⟨S1024x4096, .f32⟩ : BufTy).Contents (Elt Ideal))
    (B1 : (⟨S4096, .f32⟩ : BufTy).Contents (Elt Ideal)) (W2 : (⟨S4096x1024, .f32⟩ : BufTy).Contents (Elt Ideal))
    (B2 : (⟨S1024, .f32⟩ : BufTy).Contents (Elt Ideal)) :
    val_main_v8 (F := Ideal) X W1 B1 W2 B2 = ffn X W1 B1 W2 B2 := by
  funext i
  rw [val_main_v8_apply, val_main_v5_apply, val_main_v7_apply, val_main_v6_apply, b2_idx]
  simp only [val_main_v4_apply, val_main_v3_apply, val_main_v0_apply, val_main_v2_apply, val_main_v1_apply,
    val_main_call0_v0_apply, val_main_call0_cst_apply, tokens_idx, w1_idx, b1_idx, w2_idx]
  rfl

end Cert.ReferenceIdeal.FfnRef

end
-- ==== Proof.lean ====
/-
  A two-layer feed-forward map on 8192 tokens of 1024 features, computed block by block, against the plain program.

  Both programs compute, for each token (a row `x` of 1024 features), the 4096 hidden units
  `h k = max (∑ j, x j · W1 (j, k) + b1 k) 0` and then the 1024 output features `∑ k, h k · W2 (k, d) + b2 d`.
  The reference does so with two whole contractions over the [4, 2048, 1024] token array. The kernel views the tokens
  as an [8192, 1024] array, takes them 512 at a time over a grid of sixteen points, and forms the hidden units in two
  halves of 2048, adding the two halves' contributions to the output one after the other onto zero; its result is viewed
  back as [4, 2048, 1024]. On the extended reals a change of float format is the identity and each matrix product is its
  plain sum, so the two results differ only in how the sum over the hidden units is grouped — first half plus second
  half, against all 4096 at once — and addition of extended reals is associative and commutative at every value. The
  equality therefore holds for all inputs and never uses that they are finite.

  `Cert.Ffn` states the map and the halves law; `Cert.KernelIdeal.FfnBlock` reads the body's arithmetic at a position;
  `Cert.KernelIdeal.FfnRegion` carries it from a block to the region's whole output array; `Cert.KernelIdeal.FfnRun`
  carries it through the views around the region to the program's result; `Cert.ReferenceIdeal.FfnRef` reads the
  reference. The three frames are the programs' runs with the result dropped, and the kernel's idealization rewrote
  nothing, so that conjunct is `True`.
-/
import proofs.«121778_j58506044506432_2_alg».proof.Defs
import proofs.«121778_j58506044506432_2_alg».proof.Proof.Gen.Kernel
import proofs.«121778_j58506044506432_2_alg».proof.Proof.Gen.Kernel.Skeleton
import proofs.«121778_j58506044506432_2_alg».proof.Proof.Gen.Kernel.Launch
import proofs.«121778_j58506044506432_2_alg».proof.Proof.Gen.Kernel.Points
import proofs.«121778_j58506044506432_2_alg».proof.Proof.Gen.Kernel.Frame
import proofs.«121778_j58506044506432_2_alg».proof.Proof.Gen.KernelIdeal
import proofs.«121778_j58506044506432_2_alg».proof.Proof.Gen.KernelIdeal.Skeleton
import proofs.«121778_j58506044506432_2_alg».proof.Proof.Gen.KernelIdeal.Launch
import proofs.«121778_j58506044506432_2_alg».proof.Proof.Gen.KernelIdeal.Points
import proofs.«121778_j58506044506432_2_alg».proof.Proof.Gen.KernelIdeal.Frame
import proofs.«121778_j58506044506432_2_alg».proof.Proof.Gen.ReferenceIdeal
import proofs.«121778_j58506044506432_2_alg».proof.Proof.Gen.Pre_finite_inputs
import proofs.«121778_j58506044506432_2_alg».proof.Proof.Gen.ReferenceIdeal.Run
import proofs.«121778_j58506044506432_2_alg».proof.Proof.Gen.ReferenceIdeal.Read
import proofs.«121778_j58506044506432_2_alg».proof.Proof.FfnSpec
import proofs.«121778_j58506044506432_2_alg».proof.Proof.FfnKernelRun
import proofs.«121778_j58506044506432_2_alg».proof.Proof.FfnReference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the feed-forward map of the argument arrays; the arguments agree. -/
theorem algebraic : Cert.algebraic_KernelIdeal_ReferenceIdeal := by
  intro m ρ m' ρ' _ hagree
  refine ⟨fun c => Cert.Ffn.ffn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.FfnRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [h0, h1, h2, h3, h4, Cert.ReferenceIdeal.Read.val_main_v8_eq]
  exact Cert.ReferenceIdeal.FfnRef.reference_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
